-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.ThreeHalves.lean ====
/-
  Scaling by three halves, written two ways, on the extended reals.

  One program multiplies by the float `1.5`; the other multiplies by `3.0` and then divides by `2.0`.  The three
  patterns are exact dyadic rationals (`1.5 = 3 · 2⁻¹`, `3 = 3 · 2⁰`, `2 = 2¹`), so read exactly they denote the
  reals `3/2`, `3` and `2`.  Division by the nonzero real `2` is the product with `1/2` on EVERY extended real, the
  infinities included, and the product of extended reals is associative; hence
      (a · 3) / 2 = (a · 3) · (1/2) = a · (3 · (1/2)) = a · (3/2)
  for every extended real `a`: no finiteness of `a` is used.
-/
import Idealize.ShloMosaic.PureOps.Ideal

noncomputable section

namespace Cert.ThreeHalves

open Idealize.ShloMosaic

/-- The pattern of `2.0` (sign 0, exponent field 128, fraction 0) denotes `2²³ · 2^(128 − 127 − 23) = 2`. -/
theorem ofBits_two : Ideal.ofBits .f32 0x40000000#32 = ((2 : ℝ) : EReal) := by
  simp [Ideal.ofBits, Ideal.ieee, -EReal.coe_mul]; norm_num

/-- The pattern of `3.0` (exponent field 128, fraction `2²²`) denotes `(2²³ + 2²²) · 2^(−22) = 3`. -/
theorem ofBits_three : Ideal.ofBits .f32 0x40400000#32 = ((3 : ℝ) : EReal) := by
  simp [Ideal.ofBits, Ideal.ieee, -EReal.coe_mul]; norm_num

/-- The pattern of `1.5` (exponent field 127, fraction `2²²`) denotes `(2²³ + 2²²) · 2^(−23) = 3/2`. -/
theorem ofBits_three_halves : Ideal.ofBits .f32 0x3FC00000#32 = ((3 / 2 : ℝ) : EReal) := by
  simp [Ideal.ofBits, Ideal.ieee, -EReal.coe_mul]; norm_num

/-- Times three, then divided by two, is times three halves — on every extended real. -/
theorem mul_three_div_two (a : EReal) :
    Ideal.div (a * ((3 : ℝ) : EReal)) ((2 : ℝ) : EReal) = a * ((3 / 2 : ℝ) : EReal) := by
  have h : (3 : ℝ) * (1 / 2) = 3 / 2 := by norm_num
  rw [Ideal.div_coe (by norm_num : (2 : ℝ) ≠ 0), mul_assoc, ← EReal.coe_mul, h]

end Cert.ThreeHalves

end
-- ==== Proof.Bridge.lean ====
/-
  The reference's result array is the kernel's, as one whole-array equation.

  Entry by entry the kernel's array holds `(x + 2) · 1.5` and the reference's `((x + 2) · 3) / 2`.  In the reference
  each constant is a scalar spread over the whole 8192 × 8192 array, and an entry of a spread scalar is the scalar;
  in the kernel the constants are scalars applied at each entry.  With the three patterns read as the reals `2`, `3`
  and `3/2`, the two entries at an index are the two sides of `(a · 3) / 2 = a · (3/2)` at `a = x + 2`, a law of
  every extended real `a` — so the equation holds for every argument array, finite or not.
-/
import proofs.«162627_j76166950027718_2_alg».proof.Proof.Gen.KernelIdeal.Value
import proofs.«162627_j76166950027718_2_alg».proof.Proof.Gen.ReferenceIdeal.Run
import proofs.«162627_j76166950027718_2_alg».proof.Proof.ThreeHalves

noncomputable section

namespace Cert.Bridge

open Idealize.ShloMosaic Idealize.ShloMosaic.TcCoe Idealize.SL.Sem
open Cert.ReferenceIdeal Cert.ReferenceIdeal.Gen

/-- `((x + 2) · 3) / 2`, the constants spread over the array, is `(x + 2) · 1.5` entry by entry. -/
theorem reference_eq_kernel (x : FVec Ideal S8192x8192 .f32) :
    Host.divf
      (mulf (addf x (broadcastInDim S8192x8192 ![] bcast_S_S8192x8192 (constant S_ .f32 0x40000000#32)))
        (broadcastInDim S8192x8192 ![] bcast_S_S8192x8192 (constant S_ .f32 0x40400000#32)))
      (broadcastInDim S8192x8192 ![] bcast_S_S8192x8192 (constant S_ .f32 0x40000000#32))
    = Cert.KernelIdeal.Value.G1 (F := Ideal) x := by
  funext i
  simp only [Cert.KernelIdeal.Value.G1, mulf, addf, Host.divf, broadcastInDim, constant,
    Ideal.hostDivf_def, Ideal.mulf_def, Ideal.addf_def, Ideal.ofBits_def,
    Cert.ThreeHalves.ofBits_two, Cert.ThreeHalves.ofBits_three, Cert.ThreeHalves.ofBits_three_halves,
    Cert.ThreeHalves.mul_three_div_two]

end Cert.Bridge

end
-- ==== Proof.lean ====
/-
  The claim: the kernel and the reference compute the same array on the extended reals.

  The kernel walks the 8192 × 8192 argument in 32 blocks of 256 rows and writes `(x + 2) · 1.5` at every entry; the
  reference computes `((x + 2) · 3) / 2` over the whole array.  What each program's result array holds after any
  weakly fair execution is read off its generated run (the kernel's blocks tile the array, so the result is one
  whole-array function of the argument; the reference's result is its operations composed).  The two whole-array
  functions agree entry by entry because `(a · 3) / 2 = a · (3/2)` on every extended real: division by the nonzero
  real `2` is the product with `1/2`, and the product is associative (Proof/ThreeHalves.lean, Proof/Bridge.lean).
  The law needs no finiteness, so the precondition is never opened.  Each frame claim is the program's run with the
  result forgotten; the idealization rewrote nothing, so the word-level kernel's relation to its idealization is
  trivial.
-/
import proofs.«162627_j76166950027718_2_alg».proof.Defs
import proofs.«162627_j76166950027718_2_alg».proof.Proof.Gen.Kernel.Frame
import proofs.«162627_j76166950027718_2_alg».proof.Proof.Gen.KernelIdeal.Value
import proofs.«162627_j76166950027718_2_alg».proof.Proof.Gen.Pre_finite_inputs
import proofs.«162627_j76166950027718_2_alg».proof.Proof.Gen.ReferenceIdeal.Run
import proofs.«162627_j76166950027718_2_alg».proof.Proof.Bridge
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the result array at `(x + 2) · 1.5` of the shared argument `x`: the kernel's by its run,
    the reference's by its run and the whole-array equation `((x + 2) · 3) / 2 = (x + 2) · 1.5`. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Bridge.reference_eq_kernel _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
